-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S16384x4096 : Shape := ⟨2, ![16384, 4096]⟩
abbrev S16384 : Shape := ⟨1, ![16384]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8x2048x4096 .f32) (main_arg1 : IVec S16384x4096 32) (main_arg2 : FVec F S16384 .f32) (main_arg3 : FVec F S16384 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8x2048x4096 : Shape := ⟨3, ![8, 2048, 4096]⟩
abbrev S16384x4096 : Shape := ⟨2, ![16384, 4096]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S8x2048x16384 : Shape := ⟨3, ![8, 2048, 16384]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x4096, .bf16⟩
  | .hbm, ⟨6, _⟩ => ⟨S16384x4096, .f32⟩
  | .hbm, ⟨7, _⟩ => ⟨S16384x1, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S1x16384, .f32⟩
  | .hbm, ⟨12, _⟩ => ⟨S16384x16384, .f32⟩
  | .hbm, ⟨13, _⟩ => ⟨S8x2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x2048x4096_S16384x4096 : S8x2048x4096.ShapeCasts S16384x4096
  bitsLt_bf16_f32 : FTy.bits .bf16 < FTy.bits .f32
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S16384x16384_S8x2048x16384 : S16384x16384.ShapeCasts S8x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .bf16 = 32 ∨ (Rect.block (s := S16384x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x16384.size a
  hwx0_3 : ∀ i : grid0.Coords, EltTy.bits .f32 = 32 ∨ (Rect.block (s := S16384x16384) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S16384x4096 : Shape := ⟨2, ![16384, 4096]⟩
abbrev S16384 : Shape := ⟨1, ![16384]⟩
abbrev S16384x1 : Shape := ⟨2, ![16384, 1]⟩
abbrev S8x2048x16384 : Shape := ⟨3, ![8, 2048, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S8x2048x16384, .f32⟩
  | .hbm, ⟨9, _⟩ => ⟨S1x1x16384, .f32⟩
  | .hbm, ⟨10, _⟩ => ⟨S8x2048x16384, .f32⟩
  | .hbm, ⟨11, _⟩ => ⟨S8x2048x16384, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S8x2048x16384_0_1_2 : S1x1x16384.BroadcastsInDim S8x2048x16384 (![0, 1, 2] : Fin 3 → Fin S8x2048x16384.rank)
  dot_S8x2048x4096_S16384x4096_S8x2048x16384_2_1_01_0_n_n_wf : DotDims.WF S8x2048x4096 S16384x4096 S8x2048x16384 [2] [1] [0, 1] [0] [] []

variable [Facts₀]

def dot_S8x2048x4096_S16384x4096_S8x2048x16384_2_1_01_0_n_n : DotDims S8x2048x4096 S16384x4096 S8x2048x16384 where
  lhsContracting := [2]
  rhsContracting := [1]
  lhsNonContracting := [0, 1]
  rhsNonContracting := [0]
  lhsBatch := []
  rhsBatch := []
  wf := dot_S8x2048x4096_S16384x4096_S8x2048x16384_2_1_01_0_n_n_wf

class Facts : Prop extends Facts₀ where

variable [Facts]
-- ==== Proof.Spec.lean ====
/-
  The quantized linear layer as one function of its four arguments, index by index, on the extended reals.

  The weight matrix is stored as integers `wq[o, k]` with one scale per output row: the real weight is
  `wq[o, k] · scale[o]`. The layer maps a batch `x[b, s, ·]` of rows to
      out[b, s, o] = Σ_k x[b, s, k] · (wq[o, k] · scale[o]) + bias[o].
  `flatAt` is the same sum for the batch flattened to rows `r = b · 2048 + s`; `out_eq_flat` says the two agree
  when the flattened matrix holds row `(b, s)` of the batch at row `r`. No algebra is needed beyond reading the
  same sum at the same entries, so nothing here asks the entries to be finite.
-/
import Idealize.ShloMosaic.PureOps.Ideal
import Idealize.ShloMosaic.Lib.ValueIdx

noncomputable section

namespace Cert.QLinear

open Idealize.ShloMosaic Idealize.ShloMosaic.ValueIdx

/-- The dequantized weight at `(o, k)`: the stored integer, read signed as a real, times row `o`'s scale. -/
def weight (wq : IVec ⟨2, ![16384, 4096]⟩ 32) (sc : FVec Ideal ⟨1, ![16384]⟩ .f32) (o : Fin 16384) (k : Fin 4096) : EReal :=
  FloatOps.sitofp (F := Ideal) .f32 (wq (ix2 o k)) * sc (ix1 o)

/-- Entry `(b, s, o)` of the layer's result. -/
def outAt (x : FVec Ideal ⟨3, ![8, 2048, 4096]⟩ .f32) (wq : IVec ⟨2, ![16384, 4096]⟩ 32)
    (sc bias : FVec Ideal ⟨1, ![16384]⟩ .f32) (b : Fin 8) (s : Fin 2048) (o : Fin 16384) : EReal :=
  (∑ k : Fin 4096, x (ix3 b s k) * weight wq sc o k) + bias (ix1 o)

/-- The layer's result, `[8, 2048, 16384]`. -/
def out (x : FVec Ideal ⟨3, ![8, 2048, 4096]⟩ .f32) (wq : IVec ⟨2, ![16384, 4096]⟩ 32)
    (sc bias : FVec Ideal ⟨1, ![16384]⟩ .f32) : FVec Ideal ⟨3, ![8, 2048, 16384]⟩ .f32 :=
  fun i => outAt x wq sc bias (i 0) (i 1) (i 2)

theorem out_ix3 (x : FVec Ideal ⟨3, ![8, 2048, 4096]⟩ .f32) (wq : IVec ⟨2, ![16384, 4096]⟩ 32)
    (sc bias : FVec Ideal ⟨1, ![16384]⟩ .f32) (b : Fin 8) (s : Fin 2048) (o : Fin 16384) :
    out x wq sc bias (ix3 b s o) = outAt x wq sc bias b s o := rfl

/-- Entry `(r, o)` of the product of a matrix of 16384 rows with the transposed weights, plus the bias: what the
    layer is on the batch flattened to rows. -/
def flatAt (x2 w2 : FVec Ideal ⟨2, ![16384, 4096]⟩ .f32) (b2 : FVec Ideal ⟨2, ![1, 16384]⟩ .f32)
    (r o : Fin 16384) : EReal :=
  (∑ k : Fin 4096, x2 (ix2 r k) * w2 (ix2 o k)) + b2 (ix2 (0 : Fin 1) o)

/-- The same as a matrix `[16384, 16384]`. -/
def flat (x2 w2 : FVec Ideal ⟨2, ![16384, 4096]⟩ .f32) (b2 : FVec Ideal ⟨2, ![1, 16384]⟩ .f32) :
    FVec Ideal ⟨2, ![16384, 16384]⟩ .f32 :=
  fun j => flatAt x2 w2 b2 (j 0) (j 1)

theorem flat_ix2 (x2 w2 : FVec Ideal ⟨2, ![16384, 4096]⟩ .f32) (b2 : FVec Ideal ⟨2, ![1, 16384]⟩ .f32)
    (r o : Fin 16384) : flat x2 w2 b2 (ix2 r o) = flatAt x2 w2 b2 r o := rfl

/-- The flattened form at row `r` is the layer at `(b, s)` once row `r` of the flattened batch is row `(b, s)` of
    the batch, the weight matrix holds the dequantized weights and the bias row the bias. -/
theorem flatAt_eq_outAt (x : FVec Ideal ⟨3, ![8, 2048, 4096]⟩ .f32) (wq : IVec ⟨2, ![16384, 4096]⟩ 32)
    (sc bias : FVec Ideal ⟨1, ![16384]⟩ .f32) (x2 w2 : FVec Ideal ⟨2, ![16384, 4096]⟩ .f32)
    (b2 : FVec Ideal ⟨2, ![1, 16384]⟩ .f32) (b : Fin 8) (s : Fin 2048) (r o : Fin 16384)
    (hx : ∀ k : Fin 4096, x2 (ix2 r k) = x (ix3 b s k))
    (hw : ∀ k : Fin 4096, w2 (ix2 o k) = weight wq sc o k)
    (hb : b2 (ix2 (0 : Fin 1) o) = bias (ix1 o)) :
    flatAt x2 w2 b2 r o = outAt x wq sc bias b s o := by
  unfold flatAt outAt
  rw [hb]
  exact congrArg (· + bias (ix1 o)) (Finset.sum_congr rfl fun k _ => by rw [hx k, hw k])

end Cert.QLinear

end
-- ==== Proof.RefSide.lean ====
/-
  The reference program computes the layer: its result, read one operation at a time at an index `(b, s, o)`, is
  the contraction over `k` of `x[b, s, k]` with `wq[o, k] · scale[o]` (the scale column stretched along the row,
  the integer weights read as reals), plus `bias[o]` stretched over the batch — `Cert.QLinear.out`.
-/
import proofs.«139811_j15006615734457_2_alg».proof.Proof.Gen.ReferenceIdeal.Read
import proofs.«139811_j15006615734457_2_alg».proof.Proof.Spec

noncomputable section

namespace Cert.QLinear.Ref

open Cert.ReferenceIdeal Cert.ReferenceIdeal.Read Idealize.ShloMosaic Idealize.ShloMosaic.ValueIdx

/-- The left operand of the contraction at `(b, s, o)`, `k`: the batch at `(b, s, k)`. -/
theorem lidx_eq (b : Fin 8) (s : Fin 2048) (o : Fin 16384) (k : Fin 4096) :
    lidx_main_v4 (ix3 b s o) k = ix3 b s k :=
  funext fun a => Fin.ext (by match a with | ⟨0, _⟩ => rfl | ⟨1, _⟩ => rfl | ⟨2, _⟩ => rfl)

/-- The right operand: the weights at `(o, k)`. -/
theorem ridx_eq (b : Fin 8) (s : Fin 2048) (o : Fin 16384) (k : Fin 4096) :
    ridx_main_v4 (ix3 b s o) k = ix2 o k :=
  funext fun a => Fin.ext (by match a with | ⟨0, _⟩ => rfl | ⟨1, _⟩ => rfl)

/-- The scale read for the weight at `(o, k)` is row `o`'s. -/
theorem scale_idx_eq (o : Fin 16384) (k : Fin 4096) : idx_main_v1 (idx_main_v2 (ix2 o k)) = ix1 o :=
  funext fun a => Fin.ext (by match a with | ⟨0, _⟩ => rfl)

/-- The bias read at `(b, s, o)` is entry `o`. -/
theorem bias_idx_eq (b : Fin 8) (s : Fin 2048) (o : Fin 16384) : idx_main_v5 (idx_main_v6 (ix3 b s o)) = ix1 o :=
  funext fun a => Fin.ext (by match a with | ⟨0, _⟩ => rfl)

/-- The reference's result is the layer. -/
theorem result_eq (x0 : (⟨S8x2048x4096, .f32⟩ : BufTy).Contents (Elt Ideal)) (x1 : (⟨S16384x4096, .i32⟩ : BufTy).Contents (Elt Ideal))
    (x2 x3 : (⟨S16384, .f32⟩ : BufTy).Contents (Elt Ideal)) :
    val_main_v7 (F := Ideal) x0 x1 x2 x3 = Cert.QLinear.out x0 x1 x2 x3 := by
  funext i
  obtain ⟨b, s, o, rfl⟩ : ∃ (b : Fin 8) (s : Fin 2048) (o : Fin 16384), i = ix3 b s o := ⟨i 0, i 1, i 2, eq_ix3 i⟩
  rw [val_main_v7_apply, val_main_v4_apply, val_main_v6_apply, val_main_v5_apply, bias_idx_eq, Cert.QLinear.out_ix3]
  simp only [val_main_v3_apply, val_main_v0_apply, val_main_v2_apply, val_main_v1_apply, lidx_eq, ridx_eq, scale_idx_eq]
  rfl

end Cert.QLinear.Ref

end
-- ==== Proof.LibDotT.lean ====
/-
  A matrix product whose right factor is contracted on its LAST axis (an M×K matrix times the transpose of an N×K
  matrix), into the zero matrix, at the ideal values: its entry (r, c) is the sum over k of (r, k) times (c, k).
  Nothing here mentions a program: literal ranks, symbolic extents.
-/
import Idealize.ShloMosaic.PureOps.Ideal.Laws
import Idealize.ShloMosaic.Lib.ValueIdx

noncomputable section

namespace Cert.DotT

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's ROW coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- The product of an M×K matrix with the transpose of an N×K matrix, into the zero matrix, at entry (r, c): the sum
    over k of (r, k) times (c, k). -/
theorem matmul_apply {M K N : Nat} {φ₁ φ₂ : FTy} (prec : Option ContractPrecision)
    (lhs : FVec Ideal ⟨2, ![M, K]⟩ φ₁) (rhs : FVec Ideal ⟨2, ![N, K]⟩ φ₂) (r : Fin M) (c : Fin N) :
    matmul (DotDims.transposedRhs M K N) prec lhs rhs (constant (F := Ideal) ⟨2, ![M, N]⟩ .f32 0x00000000#32) (ix2 r c)
      = ∑ k : Fin K, lhs (ix2 r k) * rhs (ix2 c k) := by
  show FloatOps.matmul (DotDims.transposedRhs M K N) prec lhs rhs (constant (F := Ideal) ⟨2, ![M, N]⟩ .f32 0x00000000#32) (ix2 r c) = _
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_row _ _
      | ⟨1, _⟩ => exact ((DotDims.transposedRhs M K N).rhsIdx_val_of_single rfl _ _).trans hk)
  rw [el, er]

end Cert.DotT

end
-- ==== Proof.Payload.lean ====
/-
  What the kernel body stores, read at an entry `(r, c)` of its 1024 × 512 output block: the block of 1024 rows of
  the flattened batch times the transpose of a block of 512 weight rows, contracted over all 4096 columns in one
  product into a zero accumulator, plus the bias block's one row stretched over the 1024 rows:
      Σ_k xblk[r, k] · wblk[c, k] + bblk[0, c].
-/
import proofs.«139811_j15006615734457_2_alg».proof.Proof.Gen.KernelIdeal.Skeleton
import proofs.«139811_j15006615734457_2_alg».proof.Proof.LibDotT
import Idealize.ShloMosaic.Lib.Pipeline.Value
import Idealize.ShloMosaic.Lib.ValueLayout

noncomputable section

namespace Cert.QLinear.Body

open Cert.KernelIdeal Cert.KernelIdeal.Gen Idealize.ShloMosaic Idealize.ShloMosaic.ValueIdx

/-- The body's contraction is the product with the transposed right factor: both operands contracted on their
    column axis. -/
theorem dims_eq : dot_S1024x4096_S512x4096_S1024x512_1_1_0_0_n_n = DotDims.transposedRhs 1024 4096 512 := rfl

/-- The stored value at `(r, c)`. -/
theorem pay_apply (v0 : Vec Ideal S1024x4096 .bf16) (v2 : Vec Ideal S512x4096 .bf16) (v5 : Vec Ideal S1x512 .f32)
    (r : Fin 1024) (c : Fin 512) :
    k0_pay1 (F := Ideal) v0 v2 v5 (ix2 r c) = (∑ k : Fin 4096, v0 (ix2 r k) * v2 (ix2 c k)) + v5 (ix2 (0 : Fin 1) c) := by
  unfold k0_pay1
  rw [shapeCast_self, shapeCast_self, shapeCast_self, addf_apply, dims_eq, Cert.DotT.matmul_apply,
    broadcastTo_1b_ab_apply]

end Cert.QLinear.Body

end
-- ==== Proof.Blocks.lean ====
/-
  From blocks to the array. The launch runs the body at the 16 × 32 grid points; at point `(i, j)` it reads rows
  `1024·i … 1024·i + 1023` of the flattened batch, weight rows `512·j … 512·j + 511` and columns `512·j …` of the bias row,
  and writes back the 1024 × 512 block at block position `(i, j)` of the 16384 × 16384 result. Every block written
  back is the matching block of ONE matrix — row `R`, column `O` holds `Σ_k X[R, k] · W[O, k] + B[0, O]` — and the
  blocks tile the result, so after the launch the result array is that matrix.
-/
import proofs.«139811_j15006615734457_2_alg».proof.Proof.Gen.KernelIdeal.Frame
import proofs.«139811_j15006615734457_2_alg».proof.Proof.Payload
import proofs.«139811_j15006615734457_2_alg».proof.Proof.Spec
import Idealize.ShloMosaic.Lib.Pipeline.Value
import Idealize.ShloMosaic.Lib.ValueIdx

noncomputable section

namespace Cert.QLinear.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

theorem zero_offsets : (![0, 0] : Fin 2 → Nat) = fun _ => 0 := funext fun a => by fin_cases a <;> rfl

/-- One entry of a block the body stores is the matching entry of the whole product: entry `(p, q)` of the block
    is entry `(R, O)` of the matrix when the block's rows of the two factors are rows `R` and `O` of the whole
    factors and its bias entry is column `O` of the bias row. -/
theorem block_entry (X W : FVec Ideal ⟨2, ![16384, 4096]⟩ .f32) (B : FVec Ideal ⟨2, ![1, 16384]⟩ .f32)
    (x0 : Vec Ideal S1024x4096 .bf16) (x1 : Vec Ideal S512x4096 .bf16) (x2 : Vec Ideal S1x512 .f32)
    (p : Fin 1024) (q : Fin 512) (R O : Fin 16384)
    (h0 : ∀ k : Fin 4096, x0 (ix2 p k) = X (ix2 R k)) (h1 : ∀ k : Fin 4096, x1 (ix2 q k) = W (ix2 O k))
    (h2 : x2 (ix2 (0 : Fin 1) q) = B (ix2 (0 : Fin 1) O)) :
    k0_pay1 (F := Ideal) x0 x1 x2 (ix2 p q) = Cert.QLinear.flatAt X W B R O := by
  rw [Cert.QLinear.Body.pay_apply, h2]
  unfold Cert.QLinear.flatAt
  exact congrArg (· + B (ix2 (0 : Fin 1) O)) (Finset.sum_congr rfl fun k _ => by rw [h0 k, h1 k])

/-- The printed index maps over the grid: the batch block moves with the output's row block, the weight and bias
    blocks with its column block; the output's block position at point `t` is `(t / 32, t % 32)`: the column block moves fastest. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) = t.val / 32 ∧ win0_3.index t (1 : Fin 2) = t.val % 32 :=
  (by decide +kernel : ∀ t : Fin grid0.N, _)

/-- The whole product on the arrays the launch finds. -/
abbrev prod (c : Dev nD) : FVec Ideal ⟨2, ![16384, 16384]⟩ .f32 :=
  Cert.QLinear.flat (V m c main_v1) (V m c main_v6) (V m c main_v7)

theorem prod_ix2 (c : Dev nD) (r o : Fin 16384) :
    prod m c (ix2 r o) = Cert.QLinear.flatAt (V m c main_v1) (V m c main_v6) (V m c main_v7) r o := rfl

/-- What grid point `t` writes back is block `t` of the whole product. -/
theorem flushed_eq (c : Dev nD) (t : Fin cfg0.N) :
    (dats m 0 c).flushed 3 t = ((cfg0.win 3).blk t).view.read (Elt Ideal) (prod m c) := by
  show (cfg0.win 3).cut (grid0.coords t) ((dats m 0 c).after 3 t) = _
  rw [after0_3]
  unfold out0_3
  rw [View.canon_unit_zero zero_offsets]
  simp only [View.ld_unit_zero (S := S1024x4096) zero_offsets, View.ld_unit_zero (S := S512x4096) zero_offsets,
    View.ld_unit_zero (S := S1x512) zero_offsets]
  obtain ⟨e0, e1, e2, e3, e4, e5, e6, e7⟩ := idx_facts t
  have ht : t.val < 512 := lt_of_lt_of_eq t.isLt N_0
  funext j
  obtain ⟨p, q, rfl⟩ : ∃ (p : Fin 1024) (q : Fin 512), j = ix2 p q := ⟨j 0, j 1, eq_ix2 j⟩
  have hp : p.val < 1024 := p.isLt
  have hq : q.val < 512 := q.isLt
  show k0_pay1 (F := Ideal) (iblk m c 0 t) (iblk m c 1 t) (iblk m c 2 t) (ix2 p q)
    = prod m c (((cfg0.win 3).blk t).view.emb (ix2 p q))
  have hemb : ((cfg0.win 3).blk t).view.emb (ix2 p q)
      = ix2 (⟨win0_3.index t (0 : Fin 2) * 1024 + p.val, by omega⟩ : Fin 16384) (⟨win0_3.index t (1 : Fin 2) * 512 + q.val, by omega⟩ : Fin 16384) := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 512 + 1 * q.val = win0_3.index t (1 : Fin 2) * 512 + q.val; omega
  rw [hemb, prod_ix2]
  refine block_entry (V m c main_v1) (V m c main_v6) (V m c main_v7) (iblk m c 0 t) (iblk m c 1 t) (iblk m c 2 t) p q _ _
    (fun k => ?_) (fun k => ?_) ?_
  · show V m c main_v1 (((cfg0.win 0).blk t).view.emb (ix2 p k)) = V m c main_v1 (ix2 _ k)
    refine congrArg (V m c main_v1) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 4096 + 1 * k.val = k.val; omega
  · show V m c main_v6 (((cfg0.win 1).blk t).view.emb (ix2 q k)) = V m c main_v6 (ix2 _ k)
    refine congrArg (V m c main_v6) (funext fun a => Fin.ext ?_)
    match a with
    | ⟨0, _⟩ => show win0_1.index t (0 : Fin 2) * 512 + 1 * q.val = win0_3.index t (1 : Fin 2) * 512 + q.val; omega
    | ⟨1, _⟩ => show win0_1.index t (1 : Fin 2) * 4096 + 1 * k.val = k.val; omega
  · show V m c main_v7 (((cfg0.win 2).blk t).view.emb (ix2 (0 : Fin 1) q)) = V m c main_v7 (ix2 (0 : Fin 1) _)
    refine congrArg (V m c main_v7) (funext fun a => Fin.ext ?_)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + q.val; omega

/-- An entry of the result is in point `t`'s block exactly when each coordinate is in the block's range. -/
theorem mem_blk (t : Fin cfg0.N) (i : S16384x16384.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v8).slice (win0_3.rect t)).set ↔ _
  rw [View.set_slice_whole, Rect.mem_set_unit]
  exact Iff.rfl

/-- The blocks tile the result: entry `(R, O)` is in the block of the point `(R / 1024) · 32 + O / 512`. -/
theorem cover (i : S16384x16384.Idx) :
    ∃ t : Fin cfg0.N, (cfg0.win 3).flush t = true ∧ i ∈ ((cfg0.win 3).blk t).view.set := by
  have hi0 : (i 0).val < 16384 := (i 0).isLt
  have hi1 : (i 1).val < 16384 := (i 1).isLt
  let t : Fin cfg0.N := Fin.cast N_0.symm ⟨(i 0).val / 1024 * 32 + (i 1).val / 512, by omega⟩
  have htv : t.val = (i 0).val / 1024 * 32 + (i 1).val / 512 := rfl
  obtain ⟨-, -, -, -, -, -, e6, e7⟩ := idx_facts t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- After the launch the result array is the whole product. -/
theorem final (c : Dev nD) : (dats m 0 c).arrAt 3 cfg0.N = prod m c :=
  (dats m 0 c).arrAt_eq_of_cover 3 (prod m c) (fun t _ => flushed_eq m c t) cover

end Cert.QLinear.Blocks

end
-- ==== Proof.HostPrefix.lean ====
/-
  What the kernel's launch finds in the three arrays the host prepares before it, read at an entry. At the ideal
  values a change of float format is the identity, so:
  * the flattened batch at row `r = b · 2048 + s`, column `k`, is the batch at `(b, s, k)` (a reshape keeps the
    row-major position);
  * the weight matrix at `(o, k)` is the stored integer read as a real times row `o`'s scale (the scale vector made
    a column and stretched along the row);
  * the bias row at `(0, o)` is the bias at `o`.
-/
import proofs.«139811_j15006615734457_2_alg».proof.Proof.Gen.KernelIdeal.Frame
import proofs.«139811_j15006615734457_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.QLinear.Host

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The flattened batch, as the host's operations compute it from the batch argument. -/
theorem xflat_eq (c : Dev nD) : (V m c main_v1 : S16384x4096.Idx → EReal) =
    (truncf (F := Ideal) .bf16 (shapeCast S16384x4096 (m ((c : Thread nD τ).loc main_arg0)) Facts₀.shapeCasts_S8x2048x4096_S16384x4096 : FVec Ideal S16384x4096 .f32) Facts₀.bitsLt_bf16_f32 : FVec Ideal S16384x4096 .bf16) := by
  show StableHlo.after hostOps0 (fun b => m (c, b)) (Proc.devRef .tc main_v1) = _
  after_results
  try rfl

/-- The dequantized weights, from the integer weights and the scales. -/
theorem wdeq_eq (c : Dev nD) : (V m c main_v6 : S16384x4096.Idx → EReal) =
    (truncf (F := Ideal) .bf16 (mulf (F := Ideal) (sitofp (F := Ideal) .f32 (m ((c : Thread nD τ).loc main_arg1) : IVec S16384x4096 32) : FVec Ideal S16384x4096 .f32)
      (broadcastInDim S16384x4096 ![0, 1] Facts₀.bcast_S16384x1_S16384x4096_0_1 (broadcastInDim S16384x1 ![0] Facts₀.bcast_S16384_S16384x1_0 (m ((c : Thread nD τ).loc main_arg2) : FVec Ideal S16384 .f32)))) Facts₀.bitsLt_bf16_f32 : FVec Ideal S16384x4096 .bf16) := by
  show StableHlo.after hostOps0 (fun b => m (c, b)) (Proc.devRef .tc main_v6) = _
  after_results
  try rfl

/-- The bias as a one-row matrix. -/
theorem brow_eq (c : Dev nD) : (V m c main_v7 : S1x16384.Idx → EReal) =
    (shapeCast S1x16384 (m ((c : Thread nD τ).loc main_arg3) : FVec Ideal S16384 .f32) Facts₀.shapeCasts_S16384_S1x16384 : FVec Ideal S1x16384 .f32) := by
  show StableHlo.after hostOps0 (fun b => m (c, b)) (Proc.devRef .tc main_v7) = _
  after_results
  try rfl

/-- Row `b · 2048 + s` of the flattened batch is row `(b, s)` of the batch. -/
theorem xflat_apply (c : Dev nD) (b : Fin 8) (s : Fin 2048) (r : Fin 16384) (k : Fin 4096) (hr : r.val = b.val * 2048 + s.val) :
    (V m c main_v1 : S16384x4096.Idx → EReal) (ix2 r k) = m ((c : Thread nD τ).loc main_arg0) (ix3 b s k) := by
  rw [xflat_eq, truncf_apply]
  refine shapeCast_apply _ _ (ix2 r k) (ix3 b s k) ?_
  rw [Shape.rowMajor_val_three, Shape.rowMajor_val_two]
  show (b.val * 2048 + s.val) * 4096 + k.val = r.val * 4096 + k.val
  rw [hr]

/-- The weight matrix holds the dequantized weights. -/
theorem wdeq_apply (c : Dev nD) (o : Fin 16384) (k : Fin 4096) :
    (V m c main_v6 : S16384x4096.Idx → EReal) (ix2 o k)
      = Cert.QLinear.weight (m ((c : Thread nD τ).loc main_arg1)) (m ((c : Thread nD τ).loc main_arg2)) o k := by
  rw [wdeq_eq, truncf_apply, mulf_apply, sitofp_apply,
    broadcastInDim_apply _ Facts₀.bcast_S16384x1_S16384x4096_0_1 _ (ix2 o k) (ix2 o (0 : Fin 1)) (fun a => match a with
      | ⟨0, _⟩ => by show o.val = if (16384 : Nat) = 1 then 0 else o.val; rw [if_neg (by decide)]
      | ⟨1, _⟩ => by show 0 = if (1 : Nat) = 1 then 0 else k.val; rw [if_pos rfl]),
    broadcastInDim_apply _ Facts₀.bcast_S16384_S16384x1_0 _ (ix2 o (0 : Fin 1)) (ix1 o) (fun a => match a with
      | ⟨0, _⟩ => by show o.val = if (16384 : Nat) = 1 then 0 else o.val; rw [if_neg (by decide)])]
  rfl

/-- The bias row holds the bias. -/
theorem brow_apply (c : Dev nD) (o : Fin 16384) :
    (V m c main_v7 : S1x16384.Idx → EReal) (ix2 (0 : Fin 1) o) = m ((c : Thread nD τ).loc main_arg3) (ix1 o) := by
  rw [brow_eq]
  exact shapeCast_a_1a_apply _ _ 0 o

end Cert.QLinear.Host

end
-- ==== Proof.KernelRun.lean ====
/-
  The kernel program's run, read: the launch leaves the whole product in the 16384 × 16384 result array, the one
  host operation after it recuts that array, row `b · 2048 + s` becoming row `(b, s)`, and row `b · 2048 + s` of the
  product is the layer at `(b, s)` because the host prepared the flattened batch, the dequantized weights and the
  bias row from the arguments. So the program's result is `Cert.QLinear.out` of its arguments, which it leaves
  unchanged.
-/
import proofs.«139811_j15006615734457_2_alg».proof.Proof.Blocks
import proofs.«139811_j15006615734457_2_alg».proof.Proof.HostPrefix
import Idealize.ShloMosaic.Lib.StableHlo.Run

noncomputable section

namespace Cert.QLinear.Run

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx

variable (m : (ℓ : Loc nD τ sig) → Buf (Elt Ideal) ℓ) (ρ : Dev nD → PrngReg)

/-- Row `b · 2048 + s`, column `o` of the product is the layer at `(b, s, o)`. -/
theorem prod_apply (c : Dev nD) (b : Fin 8) (s : Fin 2048) (o r : Fin 16384) (hr : r.val = b.val * 2048 + s.val) :
    Cert.QLinear.Blocks.prod m c (ix2 r o)
      = Cert.QLinear.outAt (m ((c : Thread nD τ).loc main_arg0)) (m ((c : Thread nD τ).loc main_arg1))
          (m ((c : Thread nD τ).loc main_arg2)) (m ((c : Thread nD τ).loc main_arg3)) b s o := by
  rw [Cert.QLinear.Blocks.prod_ix2]
  exact Cert.QLinear.flatAt_eq_outAt _ _ _ _ _ _ _ b s r o (fun k => Cert.QLinear.Host.xflat_apply m c b s r k hr)
    (fun k => Cert.QLinear.Host.wdeq_apply m c o k) (Cert.QLinear.Host.brow_apply m c o)

/-- The program's result buffer after the host operation that follows the launch. -/
theorem result_eq (c : Dev nD) :
    Pipeline.afterTail₀ cfgs (dats m) 0 (V0 m) [hostOps1] c main_v9
      = Cert.QLinear.out (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v9) = _
  after_results
  rw [Pipeline.withArrays_arr spec0 launch0.win.arr_inj c _ _ 3, Cert.QLinear.Blocks.final]
  funext i
  obtain ⟨b, s, o, rfl⟩ : ∃ (b : Fin 8) (s : Fin 2048) (o : Fin 16384), i = ix3 b s o := ⟨i 0, i 1, i 2, eq_ix3 i⟩
  have hb : b.val < 8 := b.isLt
  have hs : s.val < 2048 := s.isLt
  rw [Cert.QLinear.out_ix3]
  refine (shapeCast_apply _ _ (ix3 b s o) (ix2 (⟨b.val * 2048 + s.val, by omega⟩ : Fin 16384) o) ?_).trans
    (prod_apply m c b s o _ rfl)
  rw [Shape.rowMajor_val_two, Shape.rowMajor_val_three]
  rfl

/-- Every weakly fair execution of the kernel program terminates with the result at the layer of the arguments and
    the arguments unchanged. -/
theorem run : θ_run defs (onTc (τ := τ) (main (F := Ideal))) ⟨m, fun _ => 0, ρ⟩ fun r => ∀ c : Dev nD,
      r.2.mem ((c.tc : Thread nD τ).loc main_v9)
        = Cert.QLinear.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.QLinear.Run

end
-- ==== Proof.lean ====
/-
  A quantized linear layer against its plain reference, at the ideal values.

  Both programs compute, for a batch `x : [8, 2048, 4096]`, integer weights `wq : [16384, 4096]` with one scale per
  output row and a bias,
      out[b, s, o] = Σ_k x[b, s, k] · (wq[o, k] · scale[o]) + bias[o].
  The reference contracts the batch with the dequantized weights in one contraction and adds the bias stretched over
  the batch. The kernel program flattens the batch to 16384 rows, dequantizes the weights on the host, and multiplies
  in blocks: a 16 × 32 grid, each point one 1024 × 512 block of the product of the flattened batch with the transposed
  weights, contracted over all 4096 columns at once, plus the matching piece of the bias row; a last reshape cuts the
  16384 rows back into `[8, 2048]`. At the ideal values the changes of float format on the way into the product are
  the identity, so the two results are the same sum of the same terms, entry by entry: no law of arithmetic is
  needed and the inputs' finiteness is never used.

  The modules: `Spec` (the layer as one function), `RefSide` (the reference computes it), `HostPrefix` (what the
  launch finds in its three input arrays), `Payload` (one entry of a stored block), `Blocks` (the blocks are blocks
  of one product and tile the result), `KernelRun` (the kernel program's run, with the reshape after the launch).
-/
import proofs.«139811_j15006615734457_2_alg».proof.Defs
import proofs.«139811_j15006615734457_2_alg».proof.Proof.Gen.Kernel
import proofs.«139811_j15006615734457_2_alg».proof.Proof.Gen.Kernel.Skeleton
import proofs.«139811_j15006615734457_2_alg».proof.Proof.Gen.Kernel.Launch
import proofs.«139811_j15006615734457_2_alg».proof.Proof.Gen.Kernel.Points
import proofs.«139811_j15006615734457_2_alg».proof.Proof.Gen.Kernel.Frame
import proofs.«139811_j15006615734457_2_alg».proof.Proof.Gen.KernelIdeal
import proofs.«139811_j15006615734457_2_alg».proof.Proof.Gen.KernelIdeal.Skeleton
import proofs.«139811_j15006615734457_2_alg».proof.Proof.Gen.KernelIdeal.Launch
import proofs.«139811_j15006615734457_2_alg».proof.Proof.Gen.KernelIdeal.Points
import proofs.«139811_j15006615734457_2_alg».proof.Proof.Gen.KernelIdeal.Frame
import proofs.«139811_j15006615734457_2_alg».proof.Proof.Gen.ReferenceIdeal
import proofs.«139811_j15006615734457_2_alg».proof.Proof.Gen.Pre_finite_inputs
import proofs.«139811_j15006615734457_2_alg».proof.Proof.Gen.ReferenceIdeal.Run
import proofs.«139811_j15006615734457_2_alg».proof.Proof.Gen.ReferenceIdeal.Read
import proofs.«139811_j15006615734457_2_alg».proof.Proof.RefSide
import proofs.«139811_j15006615734457_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program at the ideal values. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer of those arguments in their
    result. -/
theorem algebraic : Cert.algebraic_KernelIdeal_ReferenceIdeal := by
  intro m ρ m' ρ' _ hagree
  refine ⟨_, Cert.QLinear.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v7_eq _ _ _ _).trans (Cert.QLinear.Ref.result_eq _ _ _ _)

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
